-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S256x2048 : Shape := ⟨2, ![256, 2048]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1024x2048, .f32⟩
  | .local _ .vmem, ⟨5, _⟩ => ⟨S1024x2048, .f32⟩
  | .local _ .vmem, ⟨6, _⟩ => ⟨S2048x2048, .bf16⟩
  | .local _ .vmem, ⟨7, _⟩ => ⟨S1024x512, .f32⟩
  | .local _ .vmem, ⟨8, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c512_i32 : BitVec 32 := 512#32
  let v0 : BitVec 32 := Scalar.muli arg1 c512_i32
  v0
def k1_off1 (i : grid1.Coords) : Fin 2 → Nat :=
  let c0 : Index := 0#32
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  ![0, v2.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  h_S2048x512 : 0 < S2048x512.numel
  shapeCasts_S2048x512_S2048x512 : S2048x512.ShapeCasts S2048x512
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S2048x512.size a ≤ S2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x2048.size a
  hwx1_2 : ∀ i : grid1.Coords, EltTy.bits .f32 = 32 ∨ (Rect.block (s := S8192x2048) S1024x512.size (cc1_transform_2 i) (hinb1_2 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .i1⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_v5 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The function both programs compute, on the extended reals.

  A weight `w` is binarized to `bin w = (if w - 0 < 0 then 0 else 1) * 1 + 0` (the threshold 0, the range [0, 1]
  rescaled by `* (1 - 0) + 0`), and the layer is the matrix product of the input with the binarized weights:

      dense x w (r, c) = sum over k < 2048 of  x (r, k) * bin (w (k, c)).

  `bin` is written with the very operations and float words both programs print (the zero word and the word of 1.0),
  so neither side ever evaluates a literal; a change of float format is the identity on the extended reals. Nothing
  is assumed finite anywhere: both programs form the same finite sum of the same products.
-/
import Idealize.ShloMosaic.PureOps.Ideal
import Idealize.ShloMosaic.Lib.ValueIdx

noncomputable section

namespace BinaryDense

open Idealize.ShloMosaic Idealize.ShloMosaic.ValueIdx

/-- The input's shape, [8192, 2048], which is also the result's. -/
abbrev SX : Shape := ⟨2, ![8192, 2048]⟩
/-- The weights' shape, [2048, 2048]. -/
abbrev SW : Shape := ⟨2, ![2048, 2048]⟩

/-- One weight binarized and rescaled: `select (w - 0 < 0) 0 1 * 1 + 0`, over the printed words of 0.0 and 1.0. -/
def bin (w : Ideal .f32) : Ideal .f32 :=
  FloatOps.addf
    (FloatOps.mulf
      (Scalar.select
        (FloatOps.cmpf .olt (FloatOps.subf w (FloatOps.ofBits .f32 0x00000000#32)) (FloatOps.ofBits .f32 0x00000000#32))
        (FloatOps.ofBits .f32 0x00000000#32) (FloatOps.ofBits .f32 0x3F800000#32))
      (FloatOps.ofBits .f32 0x3F800000#32))
    (FloatOps.ofBits .f32 0x00000000#32)

/-- The weight matrix binarized entry by entry. -/
def binarize (w : SW.Idx → EReal) : SW.Idx → EReal := fun j => bin (w j)

/-- The matrix product [8192, 2048] x [2048, 2048], entry by entry, as a plain sum of products. -/
def prod (x : SX.Idx → EReal) (v : SW.Idx → EReal) : SX.Idx → EReal :=
  fun i => ∑ k : Fin 2048, x (ix2 (i 0) k) * v (ix2 k (i 1))

/-- The binary dense layer: the input times the binarized weights. -/
def dense (x : SX.Idx → EReal) (w : SW.Idx → EReal) : SX.Idx → EReal := prod x (binarize w)

end BinaryDense

end
-- ==== Proof.RefIsDense.lean ====
/-
  The reference computes `dense`.

  Its last operation is a `dot_general` contracting the input's second axis with the first axis of the rescaled
  binarized weights: at entry (r, c) the sum over k of x (r, k) times that matrix at (k, c). The matrix before it is
  built entry by entry — subtract the broadcast 0, compare with the broadcast 0, select between the broadcast 0 and 1,
  multiply by the broadcast 1, add the broadcast 0 — which is `bin` of the weight at that entry.
-/
import proofs.«171478_j12111807775177_2_alg».proof.Proof.Gen.ReferenceIdeal.Read
import proofs.«171478_j12111807775177_2_alg».proof.Proof.Spec

noncomputable section

namespace BinaryDense.Reference

open Idealize.ShloMosaic Idealize.ShloMosaic.ValueIdx Cert.ReferenceIdeal Cert.ReferenceIdeal.Read

/-- The left operand of the product is read at (row of the entry, k). -/
theorem lidx_eq (i : S8192x2048.Idx) (k : Fin 2048) : lidx_main_v9 i k = ix2 (i 0) k :=
  funext fun a => Fin.ext (by match a with | ⟨0, _⟩ => rfl | ⟨1, _⟩ => rfl)

/-- The right operand of the product is read at (k, column of the entry). -/
theorem ridx_eq (i : S8192x2048.Idx) (k : Fin 2048) : ridx_main_v9 i k = ix2 k (i 1) :=
  funext fun a => Fin.ext (by match a with | ⟨0, _⟩ => rfl | ⟨1, _⟩ => rfl)

/-- The matrix the reference multiplies by is the binarized weight matrix. -/
theorem weights_eq (w : SW.Idx → EReal) : val_main_v8 (F := Ideal) w = binarize w := by
  funext j
  rw [val_main_v8_apply, val_main_v7_apply, val_main_cst_4_apply, val_main_v6_apply, val_main_v5_apply,
    val_main_cst_3_apply, val_main_v4_apply, val_main_call0_v1_apply, val_main_cst_2_apply, val_main_call0_v0_apply,
    val_main_cst_1_apply, val_main_v3_apply, val_main_v2_apply, val_main_cst_0_apply, val_main_v1_apply,
    val_main_v0_apply, val_main_cst_apply]
  rfl

/-- The reference's result is the binary dense layer of its two arguments. -/
theorem result_eq (x : SX.Idx → EReal) (w : SW.Idx → EReal) : val_main_v9 (F := Ideal) x w = dense x w := by
  funext i
  rw [val_main_v9_apply, weights_eq]
  show _ = ∑ k : Fin 2048, x (ix2 (i 0) k) * binarize w (ix2 k (i 1))
  refine Finset.sum_congr rfl fun k _ => ?_
  rw [lidx_eq, ridx_eq]
  rfl

end BinaryDense.Reference

end
-- ==== Proof.KernelRun.lean ====
/-
  The kernel program's run, with its result named.

  The program is two kernels in a row: the first writes the binarized weights into an intermediate array, the second
  reads the input and that array and writes the result. Every weakly fair execution terminates without a fault, and in
  the final state the result array holds what the second kernel's write-backs leave in it (the contents named `W2` at
  the result's buffer: the fold of the two kernels' write-backs over the launch memory), while both arguments hold
  what they held at launch. The thread state carried from kernel to kernel is "every buffer that outlives a kernel at
  the boundary's contents", so the final state can be read at any such buffer — here at the result's as well as at
  the arguments'.
-/
import proofs.«171478_j12111807775177_2_alg».proof.Proof.Gen.KernelIdeal.Frame

set_option maxRecDepth 16384

noncomputable section

namespace BinaryDense.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents the
    second kernel's write-backs leave and both arguments as launched. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c)⟩)

/-- The result array after the run is what the second kernel's write-backs leave in its output window's array. -/
theorem result_array (c : Dev nD) :
    W2 m ρ c (Proc.devRef .tc main_v1) = (dat1 (V1 m ρ) c).arrAt 2 cfg1.N := W2_arr m ρ c 2

/-- The second kernel finds the input as launched: the first kernel does not touch it. -/
theorem entry_input (c : Dev nD) : V1 m ρ c main_arg0 = m ((c : Thread nD τ).loc main_arg0) :=
  W1_of_ne m ρ c main_arg0 (by decide)

/-- The second kernel finds, in the intermediate array, what the first kernel's write-backs left there. -/
theorem entry_weights (c : Dev nD) : V1 m ρ c main_v0 = (dat0 (V0 m ρ) c).arrAt 1 cfg0.N := W1_arr m ρ c 1

/-- The first kernel finds the weights as launched. -/
theorem launch_weights (c : Dev nD) : V0 m ρ c main_arg1 = m ((c : Thread nD τ).loc main_arg1) := rfl

end BinaryDense.KernelRun

end
-- ==== Proof.Weights.lean ====
/-
  The first kernel leaves the binarized weight matrix.

  Its grid has 8 points; point t reads rows 256 t .. 256 t + 255 of the weights (all 2048 columns), applies `bin` to
  every entry, and writes the result back to the same rows of its output array. The 8 row blocks tile the [2048, 2048]
  array, so after the kernel that array is `binarize` of the weights as the kernel found them: entry (k, c) depends on
  the weight at (k, c) alone.
-/
import proofs.«171478_j12111807775177_2_alg».proof.Proof.Gen.KernelIdeal.Frame
import proofs.«171478_j12111807775177_2_alg».proof.Proof.Spec
import Idealize.ShloMosaic.Lib.Pipeline.Value

noncomputable section

namespace BinaryDense.Weights

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The body's one store writes `bin` of the loaded block, entry by entry (the change of format is the identity). -/
theorem payload_apply (v : Vec Ideal S256x2048 .f32) (j : S256x2048.Idx) : k0_pay1 (F := Ideal) v j = bin (v j) := rfl

/-- At every point the input block and the output block sit at the same block index: row block t, column block 0. -/
theorem index_facts : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every one of the 8 row blocks is some point's output block. -/
theorem index_onto : ∀ q : Fin 8, ∃ t : Fin cfg0.N, win0_1.index t = ![q.val, 0] :=
  (by decide +kernel : ∀ q : Fin 8, ∃ t : Fin grid0.N, win0_1.index t = ![q.val, 0])

/-- What point t writes back is its row block of the binarized weights. -/
theorem flushed_eq (c : Dev nD) (t : Fin cfg0.N) :
    (dat0 V c).flushed 1 t = ((cfg0.win 1).blk t).view.read (Elt Ideal) (binarize (V c main_arg1)) := by
  show (cfg0.win 1).cut (grid0.coords t) ((dat0 V c).after 1 t) = _
  rw [after0_1]
  unfold out0_1
  rw [View.canon_unit_zero zero_offsets]
  simp only [View.ld_unit_zero (S := S256x2048) zero_offsets]
  obtain ⟨e0, e1⟩ := index_facts t
  funext j
  show bin (V c main_arg1 (((cfg0.win 0).blk t).view.emb j)) = bin (V c main_arg1 (((cfg0.win 1).blk t).view.emb j))
  have h : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 2048 + 1 * (j 1).val = win0_1.index t (1 : Fin 2) * 2048 + 1 * (j 1).val; omega
  rw [h]

/-- An entry of the array is in point t's output block iff each coordinate is in the block's range on its axis. -/
theorem mem_block (t : Fin cfg0.N) (i : S2048x2048.Idx) :
    i ∈ ((cfg0.win 1).blk t).view.set ↔ ∀ a : Fin 2, win0_1.index t a * S256x2048.size a ≤ (i a).val
      ∧ (i a).val < win0_1.index t a * S256x2048.size a + S256x2048.size a := by
  show i ∈ ((View.whole main_v0).slice (win0_1.rect t)).set ↔ _
  rw [View.set_slice_whole, Rect.mem_set_unit]
  exact Iff.rfl

/-- The row blocks cover the array: row r is in block r / 256. -/
theorem covered (i : S2048x2048.Idx) :
    ∃ t : Fin cfg0.N, (cfg0.win 1).flush t = true ∧ i ∈ ((cfg0.win 1).blk t).view.set := by
  have hi0 : (i 0).val < 2048 := (i 0).isLt
  have hi1 : (i 1).val < 2048 := (i 1).isLt
  obtain ⟨t, ht⟩ := index_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 2048 ≤ (i 1).val ∧ (i 1).val < win0_1.index t (1 : Fin 2) * 2048 + 2048; omega

/-- After the first kernel its output array holds the binarized weights, whatever the contents it was entered with. -/
theorem array_eq (c : Dev nD) : (dat0 V c).arrAt 1 cfg0.N = binarize (V c main_arg1) :=
  (dat0 V c).arrAt_eq_of_cover 1 (binarize (V c main_arg1)) (fun t _ => flushed_eq V c t) covered

end BinaryDense.Weights

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.Product.lean ====
/-
  The second kernel leaves the matrix product of its two input arrays.

  Its grid is 8 x 4. Point (a, b) has rows 1024 a .. 1024 a + 1023 of the input (all 2048 columns) and the whole
  [2048, 2048] intermediate array in its buffers; the body slices columns 512 b .. 512 b + 511 out of the latter,
  multiplies (a matrix product into a zero accumulator; the change of float format before it is the identity) and
  stores the [1024, 512] product, which is written back to rows 1024 a .., columns 512 b .. of the result. Entry
  (p, q) of that block is the sum over k of input (1024 a + p, k) times intermediate (k, 512 b + q): the block of the
  whole product `prod` at the block's position. The 32 blocks tile the [8192, 2048] result, so after the kernel the
  result array is `prod` of the two arrays as the kernel found them.
-/
import proofs.«171478_j12111807775177_2_alg».proof.Proof.Gen.KernelIdeal.Frame
import proofs.«171478_j12111807775177_2_alg».proof.Proof.Spec
import proofs.«171478_j12111807775177_2_alg».proof.Proof.LibPlainDot
import Idealize.ShloMosaic.Lib.Pipeline.Value

noncomputable section

namespace BinaryDense.Product

open Idealize.ShloMosaic Idealize.ShloMosaic.TcCoe Idealize.SL.Sem Idealize.ShloMosaic.ValueIdx
open Cert.KernelIdeal Cert.KernelIdeal.Gen

theorem zero_offsets : (![0, 0] : Fin 2 → Nat) = fun _ => 0 := funext fun a => by fin_cases a <;> rfl

section Body
variable {F : FTy → Type} [FloatOps F]

/-- The column slice of the intermediate array the body loads at grid coordinates `i`. -/
abbrev colSlice (i : grid1.Coords) : Rect S2048x2048 :=
  Rect.unit (s := S2048x2048) (k1_off1 i) S2048x512.size (k1_off1_inb i)

/-- What the body leaves in the output's buffer: its one store covers the buffer, and its payload is the product of
    the whole input block with the loaded column slice. -/
theorem out_eq (c : Dev nD) (i : grid1.Coords) (a2 : Memref sig .tc .vmem S1024x2048 .f32) (h2 : a2.IsWhole)
    (a3 : Memref sig .tc .vmem S2048x2048 .bf16) (h3 : a3.IsWhole) (a4 : Memref sig .tc .vmem S1024x512 .f32) (h4 : a4.IsWhole)
    (x0 : Vec F S1024x2048 .f32) (x1 : Vec F S2048x2048 .bf16) :
    out1_A_2 c i a2 h2 a3 h3 a4 h4 x0 x1 = k1_pay1 (View.ld x1 (colSlice i)) x0 := by
  unfold out1_A_2
  rw [View.read_writes_eq_canon _ _ _ (cover1_A_2 c i a2 h2 a3 h3 a4 h4 x0 x1)]
  unfold kernelRun1_A
  dsimp only
  rw [View.canon_unit_zero zero_offsets]
  simp only [View.readAt_eq_ld, h2.read_unread, h3.read_unread, View.ld_unit_zero (S := S1024x2048) zero_offsets]

end Body

/-- The payload at an entry: the plain sum over k of input-block (row, k) times slice (k, column). -/
theorem payload_apply (v3 : Vec Ideal S2048x512 .bf16) (v5 : Vec Ideal S1024x2048 .f32) (j : S1024x512.Idx) :
    k1_pay1 (F := Ideal) v3 v5 j = ∑ k : Fin 2048, (v5 (ix2 (j 0) k) : EReal) * v3 (ix2 k (j 1)) := by
  unfold k1_pay1
  refine (PlainDot.matmul_zero_apply 1024 2048 512 none (truncf .bf16 v5 bitsLt_bf16_f32)
    (shapeCast S2048x512 v3 shapeCasts_S2048x512_S2048x512) j).trans ?_
  rw [shapeCast_self]
  rfl

/-- A block's sum of products is the whole product's entry, when the block's row is the entry's row of the left matrix
    and the slice's column is the entry's column of the right matrix: the sum ranges over the whole contraction axis on
    both sides. -/
theorem block_sum (X : SX.Idx → EReal) (Y : SW.Idx → EReal) (x0 : S1024x2048.Idx → EReal) (x1 : S2048x512.Idx → EReal)
    (i : SX.Idx) (p : Fin 1024) (q : Fin 512)
    (hx : ∀ k : Fin 2048, x0 (ix2 p k) = X (ix2 (i 0) k)) (hy : ∀ k : Fin 2048, x1 (ix2 k q) = Y (ix2 k (i 1))) :
    ∑ k : Fin 2048, x0 (ix2 p k) * x1 (ix2 k q) = prod X Y i := by
  show _ = ∑ k : Fin 2048, X (ix2 (i 0) k) * Y (ix2 k (i 1))
  exact Finset.sum_congr rfl fun k _ => by rw [hx, hy]

variable (V : (c : Dev nD) → (b : Ref sig .tc) → Buf (Elt Ideal) ((c : Thread nD τ).loc b))

/-- Over the 32 points: the input block is row block a of the output's block index (a, b), column block 0; the
    intermediate array's block is the whole array; the body's column slice starts at row 0, column 512 b. -/
theorem index_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ k1_off1 (grid1.coords t) (0 : Fin 2) = 0
    ∧ k1_off1 (grid1.coords t) (1 : Fin 2) = win1_2.index t (1 : Fin 2) * 512 :=
  (by decide +kernel : ∀ t : Fin grid1.N, _)

/-- Every one of the 8 x 4 blocks of the result is some point's output block. -/
theorem index_onto : ∀ (q0 : Fin 8) (q1 : Fin 4), ∃ t : Fin cfg1.N, win1_2.index t = ![q0.val, q1.val] :=
  (by decide +kernel : ∀ (q0 : Fin 8) (q1 : Fin 4), ∃ t : Fin grid1.N, win1_2.index t = ![q0.val, q1.val])

/-- What point t writes back is its block of the product of the two arrays the kernel was entered with. -/
theorem flushed_eq (c : Dev nD) (t : Fin cfg1.N) :
    (dat1 V c).flushed 2 t = ((cfg1.win 2).blk t).view.read (Elt Ideal) (prod (V c main_arg0) (V c main_v0)) := by
  show (cfg1.win 2).cut (grid1.coords t) ((dat1 V c).after 2 t) = _
  rw [after1_2]
  unfold outsAt1
  rw [out_eq]
  obtain ⟨e0, e1, e2, e3, e4, e5⟩ := index_facts t
  funext y
  refine (payload_apply _ _ y).trans ?_
  refine block_sum (V c main_arg0) (V c main_v0) (iblk1 V c 0 t) (View.ld (iblk1 V c 1 t) (colSlice (grid1.coords t)))
    (((cfg1.win 2).blk t).view.emb y) (y 0) (y 1) (fun k => ?_) (fun k => ?_)
  · have hl : ((cfg1.win 0).blk t).view.emb (ix2 (y 0) k) = ix2 ((((cfg1.win 2).blk t).view.emb y) 0) k := by
      funext a; apply Fin.ext
      match a with
      | ⟨0, _⟩ => show win1_0.index t (0 : Fin 2) * 1024 + 1 * (y 0).val = win1_2.index t (0 : Fin 2) * 1024 + 1 * (y 0).val; omega
      | ⟨1, _⟩ => show win1_0.index t (1 : Fin 2) * 2048 + 1 * k.val = k.val; omega
    show V c main_arg0 (((cfg1.win 0).blk t).view.emb (ix2 (y 0) k)) = _
    exact congrArg (V c main_arg0) hl
  · have hr : ((cfg1.win 1).blk t).view.emb ((colSlice (grid1.coords t)).emb (ix2 k (y 1)))
        = ix2 k ((((cfg1.win 2).blk t).view.emb y) 1) := by
      funext a; apply Fin.ext
      match a with
      | ⟨0, _⟩ => show win1_1.index t (0 : Fin 2) * 2048 + 1 * (k1_off1 (grid1.coords t) (0 : Fin 2) + 1 * k.val) = k.val; omega
      | ⟨1, _⟩ => show win1_1.index t (1 : Fin 2) * 2048 + 1 * (k1_off1 (grid1.coords t) (1 : Fin 2) + 1 * (y 1).val) = win1_2.index t (1 : Fin 2) * 512 + 1 * (y 1).val; omega
    show V c main_v0 (((cfg1.win 1).blk t).view.emb ((colSlice (grid1.coords t)).emb (ix2 k (y 1)))) = _
    exact congrArg (V c main_v0) hr

/-- An entry of the result is in point t's output block iff each coordinate is in the block's range on its axis. -/
theorem mem_block (t : Fin cfg1.N) (i : S8192x2048.Idx) :
    i ∈ ((cfg1.win 2).blk t).view.set ↔ ∀ a : Fin 2, win1_2.index t a * S1024x512.size a ≤ (i a).val
      ∧ (i a).val < win1_2.index t a * S1024x512.size a + S1024x512.size a := by
  show i ∈ ((View.whole main_v1).slice (win1_2.rect t)).set ↔ _
  rw [View.set_slice_whole, Rect.mem_set_unit]
  exact Iff.rfl

/-- The 32 blocks cover the result: entry (r, c) is in block (r / 1024, c / 512). -/
theorem covered (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := index_onto ⟨(i 0).val / 1024, by omega⟩ ⟨(i 1).val / 512, by omega⟩
  have q0 : win1_2.index t (0 : Fin 2) = (i 0).val / 1024 := congrFun ht 0
  have q1 : win1_2.index t (1 : Fin 2) = (i 1).val / 512 := congrFun ht 1
  refine ⟨t, flush1_2 t, ?_⟩
  rw [mem_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 512 ≤ (i 1).val ∧ (i 1).val < win1_2.index t (1 : Fin 2) * 512 + 512; omega

/-- After the second kernel its output array holds the product of the input array and the intermediate array as the
    kernel found them, whatever the contents it was entered with. -/
theorem array_eq (c : Dev nD) : (dat1 V c).arrAt 2 cfg1.N = prod (V c main_arg0) (V c main_v0) :=
  (dat1 V c).arrAt_eq_of_cover 2 (prod (V c main_arg0) (V c main_v0)) (fun t _ => flushed_eq V c t) covered

end BinaryDense.Product

end
-- ==== Proof.KernelValue.lean ====
/-
  The kernel program computes `dense`.

  The result array ends at what the second kernel leaves: the product of the input as launched (the first kernel does
  not touch it) with the intermediate array, which holds what the first kernel leaves: the binarized weights as
  launched. That is `dense` of the two arguments.
-/
import proofs.«171478_j12111807775177_2_alg».proof.Proof.KernelRun
import proofs.«171478_j12111807775177_2_alg».proof.Proof.Weights
import proofs.«171478_j12111807775177_2_alg».proof.Proof.Product

noncomputable section

namespace BinaryDense.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result array after the run is the binary dense layer of the two arguments as launched. -/
theorem result_eq (c : Dev nD) :
    W2 m ρ c (Proc.devRef .tc main_v1)
      = dense (m ((c.tc : Thread nD τ).loc main_arg0)) (m ((c.tc : Thread nD τ).loc main_arg1)) := by
  rw [KernelRun.result_array, Product.array_eq (V1 m ρ) c, KernelRun.entry_input, KernelRun.entry_weights,
    Weights.array_eq (V0 m ρ) c, KernelRun.launch_weights]
  rfl

/-- Every weakly fair execution of the kernel program terminates, nothing faulting, with the result at `dense` of the
    arguments and the arguments unchanged. -/
theorem run : θ_run defs (onTc (τ := τ) (main (F := Ideal))) ⟨m, fun _ => 0, ρ⟩ (fun r => ∀ c : Dev nD,
      r.2.mem ((c.tc : Thread nD τ).loc main_v1)
        = dense (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (KernelRun.run m ρ)

end BinaryDense.KernelValue

end
-- ==== Proof.lean ====
/- Both programs compute the binary dense layer
       dense x w (r, c) = sum over k < 2048 of  x (r, k) * bin (w (k, c)),   bin w = select (w - 0 < 0) 0 1 * 1 + 0,
   on the extended reals (Proof/Spec.lean).
   The reference forms the binarized matrix entry by entry and contracts it with the input in one `dot_general`
   (Proof/RefIsDense.lean). The kernel program binarizes the weights in a first kernel, row block by row block
   (Proof/Weights.lean), and in a second kernel multiplies each block of 1024 input rows with each slice of 512 columns
   of the binarized matrix (Proof/Product.lean): a block of the whole product, since an entry of a matrix product
   depends on one row of the left operand and one column of the right operand only. The two programs therefore form,
   at every entry, the same finite sum of the same products: no law of arithmetic is used and nothing needs to be
   finite. The kernel program's run with its result named is Proof/KernelRun.lean, and Proof/KernelValue.lean joins the
   two kernels. The idealization rewrote nothing, so its `preserves` claim is `True`. -/
import proofs.«171478_j12111807775177_2_alg».proof.Defs
import proofs.«171478_j12111807775177_2_alg».proof.Proof.Gen.Kernel
import proofs.«171478_j12111807775177_2_alg».proof.Proof.Gen.Kernel.Skeleton
import proofs.«171478_j12111807775177_2_alg».proof.Proof.Gen.Kernel.Launch
import proofs.«171478_j12111807775177_2_alg».proof.Proof.Gen.Kernel.Points
import proofs.«171478_j12111807775177_2_alg».proof.Proof.Gen.Kernel.Frame
import proofs.«171478_j12111807775177_2_alg».proof.Proof.Gen.KernelIdeal
import proofs.«171478_j12111807775177_2_alg».proof.Proof.Gen.KernelIdeal.Skeleton
import proofs.«171478_j12111807775177_2_alg».proof.Proof.Gen.KernelIdeal.Launch
import proofs.«171478_j12111807775177_2_alg».proof.Proof.Gen.KernelIdeal.Points
import proofs.«171478_j12111807775177_2_alg».proof.Proof.Gen.KernelIdeal.Frame
import proofs.«171478_j12111807775177_2_alg».proof.Proof.Gen.ReferenceIdeal
import proofs.«171478_j12111807775177_2_alg».proof.Proof.Gen.ReferenceIdeal.Run
import proofs.«171478_j12111807775177_2_alg».proof.Proof.Gen.ReferenceIdeal.Read
import proofs.«171478_j12111807775177_2_alg».proof.Proof.Gen.Pre_finite_inputs
import proofs.«171478_j12111807775177_2_alg».proof.Proof.RefIsDense
import proofs.«171478_j12111807775177_2_alg».proof.Proof.KernelValue
import Idealize.ShloMosaic.Adequacy
import Idealize.ShloMosaic.Init

noncomputable section

namespace Cert.Proof

open Idealize.ShloMosaic Idealize.SL.Sem Cert.Kernel

/-- The kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with `dense` of the arguments in their result. -/
theorem algebraic : Cert.algebraic_KernelIdeal_ReferenceIdeal := by
  intro m ρ m' ρ' _ hagree
  refine ⟨fun c => BinaryDense.dense (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    BinaryDense.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, BinaryDense.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
